-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S256x128 .f32) (main_arg3 : FVec F S256 .f32) (main_arg4 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 33
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S50000x1, .f32⟩
  | .hbm, ⟨29, _⟩ => ⟨S128x256, .f32⟩
  | .hbm, ⟨30, _⟩ => ⟨S128x256, .f32⟩
  | .hbm, ⟨31, _⟩ => ⟨S1x256, .f32⟩
  | .hbm, ⟨32, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x1, .f32⟩
  | .local _ .vmem, ⟨8, _⟩ => ⟨S2000x1, .f32⟩
  | .local _ .vmem, ⟨9, _⟩ => ⟨S2000x256, .f32⟩
  | .local _ .vmem, ⟨10, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S256x128_S128x256_1_0 : S256x128.Transposes [1, 0] S128x256
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .f32 = 32 ∨ (Rect.block (s := S50000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S128x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.MeanLinearSpec.lean ====
/-
  Mean aggregation followed by two linear maps, a bias and a clamp at zero, on the extended reals.

  For a node `p` with summed neighbour features `S p ·` (128 of them), in-degree `C p`, own features `x p ·`, and for
  an output channel `q` with weight rows `Wl q ·`, `Wr q ·` and bias `b q`, the result is

      max ( (∑ₖ (S p k / max 1 (C p)) · Wl q k  +  b q)  +  ∑ₖ x p k · Wr q k ) 0 .

  One side of the certificate computes the quotient as a product with the reciprocal `1 / max (C p) 1` and adds the bias
  last; the other divides and adds the bias between the two sums. The clamped count is at least one, hence not zero, so
  on the extended reals `a · (1 / y) = a · y⁻¹ = a / y` for EVERY `a` (no finiteness is used), and the three summands are
  regrouped by commutativity and associativity of `+` alone.
-/
import Idealize.ShloMosaic.PureOps.Ideal
import Idealize.ShloMosaic.PureOps.IdealRules
import Idealize.ShloMosaic.Lib.ValueIdx

noncomputable section

namespace Cert.MeanLinear

open Idealize.ShloMosaic Idealize.ShloMosaic.ValueIdx

/-- The extended reals that the words of `1.0` and `0.0` denote. -/
abbrev one : EReal := Ideal.ofBits .f32 0x3F800000#32
abbrev zero : EReal := Ideal.ofBits .f32 0x00000000#32

theorem one_eq : one = 1 := IdealRules.sign_bit.ideal_onePat .f32

/-- A count clamped below by one is not zero. -/
theorem clamp_ne_zero (c : EReal) : max one c ≠ 0 := by
  have h1 : (0 : EReal) < one := by rw [one_eq]; exact zero_lt_one
  exact ne_of_gt (lt_of_lt_of_le h1 (le_max_left _ _))

/-- The product with the reciprocal of the clamped count is the quotient by it, for every extended real `a`. -/
theorem mul_recip_clamp (a c : EReal) : a * Ideal.div one (max c one) = Ideal.div a (max one c) := by
  rw [max_comm c one]
  unfold Ideal.div
  rw [if_neg (clamp_ne_zero c), if_neg (clamp_ne_zero c), one_eq, one_mul]

/-- One entry as the tiled side computes it: the row of sums scaled by the reciprocal, both dot products added, then the bias. -/
def scaledAt (s xr wl wr : Fin 128 → EReal) (cnt bias : EReal) : EReal :=
  max ((∑ k : Fin 128, (s k * Ideal.div one (max cnt one)) * wl k + ∑ k : Fin 128, xr k * wr k) + bias) zero

/-- One entry as the plain side computes it: the row of sums divided by the clamped count, the bias added between the two
    dot products. -/
def meanAt (s xr wl wr : Fin 128 → EReal) (cnt bias : EReal) : EReal :=
  max ((∑ k : Fin 128, Ideal.div (s k) (max one cnt) * wl k + bias) + ∑ k : Fin 128, xr k * wr k) zero

/-- The two are one extended real. -/
theorem scaledAt_eq_meanAt (s xr wl wr : Fin 128 → EReal) (cnt bias : EReal) :
    scaledAt s xr wl wr cnt bias = meanAt s xr wl wr cnt bias := by
  unfold scaledAt meanAt
  simp only [mul_recip_clamp]
  rw [add_right_comm]

/-- `meanAt` of entrywise equal data. -/
theorem meanAt_congr {s s' xr xr' wl wl' wr wr' : Fin 128 → EReal} {cnt cnt' bias bias' : EReal}
    (hs : ∀ k, s k = s' k) (hx : ∀ k, xr k = xr' k) (hl : ∀ k, wl k = wl' k) (hr : ∀ k, wr k = wr' k)
    (hc : cnt = cnt') (hb : bias = bias') :
    meanAt s xr wl wr cnt bias = meanAt s' xr' wl' wr' cnt' bias' := by
  obtain rfl : s = s' := funext hs
  obtain rfl : xr = xr' := funext hx
  obtain rfl : wl = wl' := funext hl
  obtain rfl : wr = wr' := funext hr
  subst hc hb
  rfl

/-- The whole result array, entry `(p, q)`, from the summed features `S`, the in-degrees `C`, the features `x`, the two
    weight matrices (stored channel-major: entry `(q, k)`) and the bias. -/
def entry (S : (⟨2, ![50000, 128]⟩ : Shape).Idx → EReal) (C : (⟨1, ![50000]⟩ : Shape).Idx → EReal)
    (x : (⟨2, ![50000, 128]⟩ : Shape).Idx → EReal) (Wl : (⟨2, ![256, 128]⟩ : Shape).Idx → EReal)
    (b : (⟨1, ![256]⟩ : Shape).Idx → EReal) (Wr : (⟨2, ![256, 128]⟩ : Shape).Idx → EReal)
    (p : Fin 50000) (q : Fin 256) : EReal :=
  meanAt (fun k => S (ix2 p k)) (fun k => x (ix2 p k)) (fun k => Wl (ix2 q k)) (fun k => Wr (ix2 q k)) (C (ix1 p)) (b (ix1 q))

def result (S : (⟨2, ![50000, 128]⟩ : Shape).Idx → EReal) (C : (⟨1, ![50000]⟩ : Shape).Idx → EReal)
    (x : (⟨2, ![50000, 128]⟩ : Shape).Idx → EReal) (Wl : (⟨2, ![256, 128]⟩ : Shape).Idx → EReal)
    (b : (⟨1, ![256]⟩ : Shape).Idx → EReal) (Wr : (⟨2, ![256, 128]⟩ : Shape).Idx → EReal) :
    (⟨2, ![50000, 256]⟩ : Shape).Idx → EReal :=
  fun i => entry S C x Wl b Wr (i 0) (i 1)

theorem result_ix2 (S : (⟨2, ![50000, 128]⟩ : Shape).Idx → EReal) (C : (⟨1, ![50000]⟩ : Shape).Idx → EReal)
    (x : (⟨2, ![50000, 128]⟩ : Shape).Idx → EReal) (Wl : (⟨2, ![256, 128]⟩ : Shape).Idx → EReal)
    (b : (⟨1, ![256]⟩ : Shape).Idx → EReal) (Wr : (⟨2, ![256, 128]⟩ : Shape).Idx → EReal) (p : Fin 50000) (q : Fin 256) :
    result S C x Wl b Wr (ix2 p q) = entry S C x Wl b Wr p q := rfl

end Cert.MeanLinear

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.BodyValue.lean ====
/-
  What one grid point's body stores, entry by entry, on the extended reals.

  The body reads a block of 2000 rows of the summed neighbour features, the same rows of the node features and of the
  in-degree column, both weight matrices (already transposed, `[128, 256]`) and the bias row, and stores ONE `[2000, 256]` value.
  Its entry `(r, q)` is `MeanLinear.scaledAt` of row `r` of the two feature blocks, column `q` of the two weight
  matrices, the in-degree of row `r` and entry `q` of the bias: the changes of float format are the identity, a matrix
  product into a zero accumulator is the sum over the 128 contracted positions of the products, the reciprocal column and the
  bias row are broadcast along the other axis.
-/
import proofs.«119769_j68109591380139_2_alg».proof.Proof.Gen.KernelIdeal.Skeleton
import proofs.«119769_j68109591380139_2_alg».proof.Proof.MeanLinearSpec
import proofs.«119769_j68109591380139_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.MeanLinear

/-- The operands' indices of the product at an output index and a contracted position, coordinate by coordinate: the
    left operand's are the output's row and the contracted position, -/
theorem lhs_row (i : S2000x256.Idx) (κ : dot_S2000x128_S128x256_S2000x256_1_0_0_1_n_n.contr.Idx) :
    (dot_S2000x128_S128x256_S2000x256_1_0_0_1_n_n.lhsIdx i κ 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem lhs_col (i : S2000x256.Idx) (κ : dot_S2000x128_S128x256_S2000x256_1_0_0_1_n_n.contr.Idx) :
    (dot_S2000x128_S128x256_S2000x256_1_0_0_1_n_n.lhsIdx i κ 1).val = (κ ⟨0, by decide⟩).val :=
  dot_S2000x128_S128x256_S2000x256_1_0_0_1_n_n.lhsIdx_val_of_single rfl i κ
/-- the right operand's the contracted position and the output's column. -/
theorem rhs_row (i : S2000x256.Idx) (κ : dot_S2000x128_S128x256_S2000x256_1_0_0_1_n_n.contr.Idx) :
    (dot_S2000x128_S128x256_S2000x256_1_0_0_1_n_n.rhsIdx i κ 0).val = (κ ⟨0, by decide⟩).val :=
  dot_S2000x128_S128x256_S2000x256_1_0_0_1_n_n.rhsIdx_val_of_single rfl i κ
theorem rhs_col (i : S2000x256.Idx) (κ : dot_S2000x128_S128x256_S2000x256_1_0_0_1_n_n.contr.Idx) :
    (dot_S2000x128_S128x256_S2000x256_1_0_0_1_n_n.rhsIdx i κ 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- So at output `(r, q)` and the `k`-th contracted position the left operand is read at `(r, k)`, -/
theorem lhs_at (r : Fin 2000) (q : Fin 256) (k : Fin 128) :
    dot_S2000x128_S128x256_S2000x256_1_0_0_1_n_n.lhsIdx (ix2 r q) ((contrEquiv1 dot_S2000x128_S128x256_S2000x256_1_0_0_1_n_n 128 rfl rfl).symm k) = ix2 r k := by
  have hk := contrEquiv1_symm_val dot_S2000x128_S128x256_S2000x256_1_0_0_1_n_n 128 rfl rfl k
  exact funext fun a => Fin.ext (by
    match a with
    | ⟨0, _⟩ => exact lhs_row _ _
    | ⟨1, _⟩ => exact (lhs_col _ _).trans hk)

/-- and the right operand at `(k, q)`. -/
theorem rhs_at (r : Fin 2000) (q : Fin 256) (k : Fin 128) :
    dot_S2000x128_S128x256_S2000x256_1_0_0_1_n_n.rhsIdx (ix2 r q) ((contrEquiv1 dot_S2000x128_S128x256_S2000x256_1_0_0_1_n_n 128 rfl rfl).symm k) = ix2 k q := by
  have hk := contrEquiv1_symm_val dot_S2000x128_S128x256_S2000x256_1_0_0_1_n_n 128 rfl rfl k
  exact funext fun a => Fin.ext (by
    match a with
    | ⟨0, _⟩ => exact (rhs_row _ _).trans hk
    | ⟨1, _⟩ => exact rhs_col _ _)

/-- A `[2000, 128] × [128, 256]` product into the zero accumulator, at `(r, q)`: the sum over `k` of `l (r, k) · w (k, q)`. -/
theorem matmul_zero_at (l : FVec Ideal S2000x128 .bf16) (w : FVec Ideal S128x256 .bf16) (r : Fin 2000) (q : Fin 256) :
    matmul dot_S2000x128_S128x256_S2000x256_1_0_0_1_n_n none l w (constant (F := Ideal) S2000x256 .f32 0x00000000#32) (ix2 r q)
      = ∑ k : Fin 128, l (ix2 r k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  rw [lhs_at, rhs_at]

/-- THE STORED VALUE at `(r, q)`. -/
theorem stored_at (v0 : Vec Ideal S2000x1 .f32) (v6 v11 : Vec Ideal S2000x128 .f32) (v13 v16 : Vec Ideal S128x256 .f32)
    (v22 : Vec Ideal S1x256 .f32) (r : Fin 2000) (q : Fin 256) :
    k0_pay1 (F := Ideal) v0 v6 v11 v13 v16 v22 (ix2 r q)
      = scaledAt (fun k => v6 (ix2 r k)) (fun k => v11 (ix2 r k)) (fun k => v13 (ix2 k q)) (fun k => v16 (ix2 k q))
          (v0 (ix2 r (0 : Fin 1))) (v22 (ix2 (0 : Fin 1) q)) := by
  unfold k0_pay1 scaledAt
  simp only [maximumf_apply, addf_apply, mulf_apply, divf_apply, truncf_apply, broadcast_apply, matmul_zero_at,
    shapeCast_self, broadcastTo_1b_ab_apply, ColumnLayout.broadcastTo_a1_ab_apply]
  rfl

end Cert.KernelIdeal.BodyValue

end
-- ==== Proof.HostPrefix.lean ====
/-
  The arrays the region finds, as functions of the argument arrays.

  Before the tiled computation starts the program has already, on the whole arrays: gathered the feature row of every edge's
  source node and added it into the row of the edge's destination node (`sumAgg`), added a one per edge into the destination's
  slot (`degree`), turned that vector into a one-column matrix, transposed both weight matrices and turned the bias into a
  one-row matrix. The gather and the two destination-indexed sums are the SAME operations, applied to the same arguments,
  on both sides of the certificate, so they are carried as two opaque functions and never opened. The re-layings are read at
  an index: the count column at `(p, 0)` is the vector at `p`, a transposed matrix at `(k, q)` is the matrix at `(q, k)`,
  the bias row at `(0, q)` is the vector at `q`.
-/
import proofs.«119769_j68109591380139_2_alg».proof.Proof.Gen.KernelIdeal.Frame
import proofs.«119769_j68109591380139_2_alg».proof.Proof.LibColumnLayout
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- Every edge's source row added into its destination's row, from zero: the features `x`, the edge list `e` (row 0 the
    sources, a negative one counted from the end; row 1 the destinations). -/
def sumAgg (x : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (shapeCast _ (extractStridedSlice S1x800000 ![1, 0] e slices_S2x800000_S1x800000_1_0) shapeCasts_S1x800000_S800000))
    (Host.gather gather_S50000x128_S800000x1_S800000x128_1_0_n_n_0_1_1128 x
      (broadcastInDim S800000x1 ![0] bcast_S800000_S800000x1_0
        (select (cmpi .slt (shapeCast _ (extractStridedSlice S1x800000 ![0, 0] e slices_S2x800000_S1x800000_0_0) shapeCasts_S1x800000_S800000) (broadcastInDim S800000 ![] bcast_S_S800000 (constantI S_ 32 0#32)))
          (addi (shapeCast _ (extractStridedSlice S1x800000 ![0, 0] e slices_S2x800000_S1x800000_0_0) shapeCasts_S1x800000_S800000) (broadcastInDim S800000 ![] bcast_S_S800000 (constantI S_ 32 50000#32)))
          (shapeCast _ (extractStridedSlice S1x800000 ![0, 0] e slices_S2x800000_S1x800000_0_0) shapeCasts_S1x800000_S800000))))

/-- A one per edge added into its destination's slot, from zero: the in-degrees. -/
def degree (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 (shapeCast _ (extractStridedSlice S1x800000 ![1, 0] e slices_S2x800000_S1x800000_1_0) shapeCasts_S1x800000_S800000))
    (broadcastInDim S800000 ![] bcast_S_S800000 (constant S_ .f32 0x3F800000#32))

variable (m : (ℓ : Loc nD τ sig) → Buf (Elt F) ℓ)

/-- The summed-features array the region's first window stages. -/
theorem sums_eq (c : Dev nD) :
    (V m c main_v13 : S50000x128.Idx → Elt F .f32)
      = sumAgg (m ((c : Thread nD τ).loc main_arg0)) (m ((c : Thread nD τ).loc main_arg1)) := by
  dsimp only [V, hostOps0]
  after_results
  all_goals rfl

/-- The in-degree column the region's last input window stages. -/
theorem count_eq (c : Dev nD) :
    (V m c main_v18 : S50000x1.Idx → Elt F .f32)
      = shapeCast S50000x1 (degree (m ((c : Thread nD τ).loc main_arg1))) shapeCasts_S50000_S50000x1 := by
  dsimp only [V, hostOps0]
  after_results
  all_goals rfl

/-- The two transposed weight matrices, -/
theorem wl_eq (c : Dev nD) :
    (V m c main_v19 : S128x256.Idx → Elt F .f32)
      = transpose S128x256 [1, 0] (m ((c : Thread nD τ).loc main_arg2)) transposes_S256x128_S128x256_1_0 := by
  dsimp only [V, hostOps0]
  after_results
  all_goals rfl
theorem wr_eq (c : Dev nD) :
    (V m c main_v20 : S128x256.Idx → Elt F .f32)
      = transpose S128x256 [1, 0] (m ((c : Thread nD τ).loc main_arg4)) transposes_S256x128_S128x256_1_0 := by
  dsimp only [V, hostOps0]
  after_results
  all_goals rfl

/-- and the bias row. -/
theorem bias_eq (c : Dev nD) :
    (V m c main_v21 : S1x256.Idx → Elt F .f32)
      = shapeCast S1x256 (m ((c : Thread nD τ).loc main_arg3)) shapeCasts_S256_S1x256 := by
  dsimp only [V, hostOps0]
  after_results
  all_goals rfl

/-! ## The re-laid arrays at an index -/

theorem count_at (c : Dev nD) (p : Fin 50000) :
    (V m c main_v18 : S50000x1.Idx → Elt F .f32) (ix2 p (0 : Fin 1))
      = degree (m ((c : Thread nD τ).loc main_arg1)) (ix1 p) := by
  rw [count_eq]
  exact ColumnLayout.shapeCast_a_a1_apply _ _ p 0

theorem wl_at (c : Dev nD) (k : Fin 128) (q : Fin 256) :
    (V m c main_v19 : S128x256.Idx → Elt F .f32) (ix2 k q)
      = (m ((c : Thread nD τ).loc main_arg2) : S256x128.Idx → Elt F .f32) (ix2 q k) := by
  rw [wl_eq]
  exact transpose_ix2_apply _ _ k q

theorem wr_at (c : Dev nD) (k : Fin 128) (q : Fin 256) :
    (V m c main_v20 : S128x256.Idx → Elt F .f32) (ix2 k q)
      = (m ((c : Thread nD τ).loc main_arg4) : S256x128.Idx → Elt F .f32) (ix2 q k) := by
  rw [wr_eq]
  exact transpose_ix2_apply _ _ k q

theorem bias_at (c : Dev nD) (q : Fin 256) :
    (V m c main_v21 : S1x256.Idx → Elt F .f32) (ix2 (0 : Fin 1) q)
      = (m ((c : Thread nD τ).loc main_arg3) : S256.Idx → Elt F .f32) (ix1 q) := by
  rw [bias_eq]
  exact shapeCast_a_1a_apply _ _ 0 q

end Cert.KernelIdeal.Entry

end
-- ==== Proof.KernelValue.lean ====
/-
  The tiled side's result array after its run, on the extended reals.

  Grid point `t` (of 25) works on rows `2000·t … 2000·t + 1999`: it is handed those rows of the summed features, of the node
  features and of the in-degree column, and the whole of the two transposed weight matrices and of the bias row, and writes
  back those rows of the result. Each input block is read off the array the region finds at block index × block size + the
  coordinate inside the block; with the stored value's entry (`BodyValue.stored_at`), the arrays the region finds
  (`Entry.…`) and the algebraic law (`MeanLinear.scaledAt_eq_meanAt`), what point `t` writes back is block `t` of
  `MeanLinear.result` of the argument arrays. The 25 blocks cover the `[50000, 256]` array — row `i` lies in block `i / 2000` —
  so after the run the array IS that function.
-/
import proofs.«119769_j68109591380139_2_alg».proof.Proof.Gen.KernelIdeal.Value
import proofs.«119769_j68109591380139_2_alg».proof.Proof.BodyValue
import proofs.«119769_j68109591380139_2_alg».proof.Proof.HostPrefix
import proofs.«119769_j68109591380139_2_alg».proof.Proof.MeanLinearSpec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.MeanLinear
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the argument arrays. -/
def out (c : Dev nD) : S50000x256.Idx → EReal :=
  result (Entry.sumAgg (F := Ideal) (m ((c : Thread nD τ).loc main_arg0)) (m ((c : Thread nD τ).loc main_arg1)))
    (Entry.degree (F := Ideal) (m ((c : Thread nD τ).loc main_arg1)))
    (m ((c : Thread nD τ).loc main_arg0)) (m ((c : Thread nD τ).loc main_arg2)) (m ((c : Thread nD τ).loc main_arg3)) (m ((c : Thread nD τ).loc main_arg4))

/-- The printed index maps over the 25 grid points: the three row-blocked inputs and the output are at block `(t, 0)`, the
    three whole-array inputs at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## Each window's block at a point, read off ANY array

The array is a variable here: the arithmetic of block index × block size + coordinate never looks at what the array holds. -/

/-- Window 0 (the summed features): rows \`2000·t …\` of the array. -/
theorem sums_read (t : Fin cfg0.N) (A : S50000x128.Idx → EReal) (y : S2000x128.Idx) (i : S50000x128.Idx)
    (h0 : (i 0).val = t.val * 2000 + (y 0).val) (h1 : (i 1).val = (y 1).val) :
    ((cfg0.win 0).blk t).view.read (Elt Ideal) A y = A i := by
  have e := idx_facts t
  show A (((cfg0.win 0).blk t).view.emb y) = A i
  refine congrArg A (funext fun a => Fin.ext ?_)
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- Window 1 (the features): the same rows. -/
theorem feats_read (t : Fin cfg0.N) (A : S50000x128.Idx → EReal) (y : S2000x128.Idx) (i : S50000x128.Idx)
    (h0 : (i 0).val = t.val * 2000 + (y 0).val) (h1 : (i 1).val = (y 1).val) :
    ((cfg0.win 1).blk t).view.read (Elt Ideal) A y = A i := by
  have e := idx_facts t
  show A (((cfg0.win 1).blk t).view.emb y) = A i
  refine congrArg A (funext fun a => Fin.ext ?_)
  match a with
  | ⟨0, _⟩ => show win0_1.index t (0 : Fin 2) * 2000 + 1 * (y 0).val = (i 0).val; omega
  | ⟨1, _⟩ => show win0_1.index t (1 : Fin 2) * 128 + 1 * (y 1).val = (i 1).val; omega

/-- Window 2 (the first transposed weight matrix): the whole array at every point. -/
theorem wl_read (t : Fin cfg0.N) (A : S128x256.Idx → EReal) (y : S128x256.Idx) :
    ((cfg0.win 2).blk t).view.read (Elt Ideal) A y = A y := by
  have e := idx_facts t
  show A (((cfg0.win 2).blk t).view.emb y) = A y
  refine congrArg A (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- Window 3 (the second): likewise. -/
theorem wr_read (t : Fin cfg0.N) (A : S128x256.Idx → EReal) (y : S128x256.Idx) :
    ((cfg0.win 3).blk t).view.read (Elt Ideal) A y = A y := by
  have e := idx_facts t
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- Window 4 (the bias row): likewise. -/
theorem bias_read (t : Fin cfg0.N) (A : S1x256.Idx → EReal) (y : S1x256.Idx) :
    ((cfg0.win 4).blk t).view.read (Elt Ideal) A y = A y := by
  have e := idx_facts t
  show A (((cfg0.win 4).blk t).view.emb y) = A y
  refine congrArg A (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5 (the in-degree column): rows \`2000·t …\`. -/
theorem count_read (t : Fin cfg0.N) (A : S50000x1.Idx → EReal) (y : S2000x1.Idx) (i : S50000x1.Idx)
    (h0 : (i 0).val = t.val * 2000 + (y 0).val) (h1 : (i 1).val = (y 1).val) :
    ((cfg0.win 5).blk t).view.read (Elt Ideal) A y = A i := by
  have e := idx_facts t
  show A (((cfg0.win 5).blk t).view.emb y) = A i
  refine congrArg A (funext fun a => Fin.ext ?_)
  match a with
  | ⟨0, _⟩ => show win0_5.index t (0 : Fin 2) * 2000 + 1 * (y 0).val = (i 0).val; omega
  | ⟨1, _⟩ => show win0_5.index t (1 : Fin 2) * 1 + 1 * (y 1).val = (i 1).val; omega

/-- Window 6 (the result): a value `Z` of the block's shape is block `t` of `G` when its entry `j` is `G` at row
    `2000·t + j₀`, column `j₁`. -/
theorem eq_result_read (t : Fin cfg0.N) (Z : Vec Ideal S2000x256 .f32) (G : S50000x256.Idx → EReal)
    (h : ∀ (j : S2000x256.Idx) (i : S50000x256.Idx), (i 0).val = t.val * 2000 + (j 0).val → (i 1).val = (j 1).val → Z j = G i) :
    (cfg0.win 6).cut (grid0.coords t) Z = ((cfg0.win 6).blk t).view.read (Elt Ideal) G := by
  have e := idx_facts t
  funext j
  show Z j = G (((cfg0.win 6).blk t).view.emb j)
  refine h j _ ?_ ?_
  · show win0_6.index t (0 : Fin 2) * 2000 + 1 * (j 0).val = t.val * 2000 + (j 0).val; omega
  · show win0_6.index t (1 : Fin 2) * 256 + 1 * (j 1).val = (j 1).val; omega

/-! ## The same at the arrays the region finds -/

theorem sums_blk (c : Dev nD) (t : Fin cfg0.N) (y : S2000x128.Idx) (i : S50000x128.Idx)
    (h0 : (i 0).val = t.val * 2000 + (y 0).val) (h1 : (i 1).val = (y 1).val) :
    (iblk m c 0 t : Vec Ideal S2000x128 .f32) y = (V m c main_v13 : S50000x128.Idx → EReal) i :=
  sums_read t (V m c (Pipeline.arrRef spec0 0)) y i h0 h1

theorem feats_blk (c : Dev nD) (t : Fin cfg0.N) (y : S2000x128.Idx) (i : S50000x128.Idx)
    (h0 : (i 0).val = t.val * 2000 + (y 0).val) (h1 : (i 1).val = (y 1).val) :
    (iblk m c 1 t : Vec Ideal S2000x128 .f32) y = (V m c main_arg0 : S50000x128.Idx → EReal) i :=
  feats_read t (V m c (Pipeline.arrRef spec0 1)) y i h0 h1

theorem wl_blk (c : Dev nD) (t : Fin cfg0.N) (y : S128x256.Idx) :
    (iblk m c 2 t : Vec Ideal S128x256 .f32) y = (V m c main_v19 : S128x256.Idx → EReal) y :=
  wl_read t (V m c (Pipeline.arrRef spec0 2)) y

theorem wr_blk (c : Dev nD) (t : Fin cfg0.N) (y : S128x256.Idx) :
    (iblk m c 3 t : Vec Ideal S128x256 .f32) y = (V m c main_v20 : S128x256.Idx → EReal) y :=
  wr_read t (V m c (Pipeline.arrRef spec0 3)) y

theorem bias_blk (c : Dev nD) (t : Fin cfg0.N) (y : S1x256.Idx) :
    (iblk m c 4 t : Vec Ideal S1x256 .f32) y = (V m c main_v21 : S1x256.Idx → EReal) y :=
  bias_read t (V m c (Pipeline.arrRef spec0 4)) y

theorem count_blk (c : Dev nD) (t : Fin cfg0.N) (y : S2000x1.Idx) (i : S50000x1.Idx)
    (h0 : (i 0).val = t.val * 2000 + (y 0).val) (h1 : (i 1).val = (y 1).val) :
    (iblk m c 5 t : Vec Ideal S2000x1 .f32) y = (V m c main_v18 : S50000x1.Idx → EReal) i :=
  count_read t (V m c (Pipeline.arrRef spec0 5)) y i h0 h1

/-! ## What a point stores is the result's entry -/

/-- At point `t`, entry `(r, q)` of the stored value is entry `(2000·t + r, q)` of `out`. -/
theorem point_entry (c : Dev nD) (t : Fin cfg0.N) (r : Fin 2000) (q : Fin 256) (p : Fin 50000)
    (hp : p.val = t.val * 2000 + r.val) :
    k0_pay1 (F := Ideal) (iblk m c 5 t) (iblk m c 0 t) (iblk m c 1 t) (iblk m c 2 t) (iblk m c 3 t) (iblk m c 4 t) (ix2 r q)
      = out m c (ix2 p q) := by
  refine (BodyValue.stored_at (iblk m c 5 t) (iblk m c 0 t) (iblk m c 1 t) (iblk m c 2 t) (iblk m c 3 t) (iblk m c 4 t) r q).trans ?_
  refine (scaledAt_eq_meanAt _ _ _ _ _ _).trans ?_
  unfold out
  refine (meanAt_congr (fun k => ?_) (fun k => ?_) (fun k => ?_) (fun k => ?_) ?_ ?_).trans (result_ix2 _ _ _ _ _ _ p q).symm
  · exact (sums_blk m c t (ix2 r k) (ix2 p k) hp rfl).trans (congrFun (Entry.sums_eq m c) (ix2 p k))
  · exact (feats_blk m c t (ix2 r k) (ix2 p k) hp rfl).trans (congrFun (V_main_arg0 m c) (ix2 p k))
  · exact (wl_blk m c t (ix2 k q)).trans (Entry.wl_at m c k q)
  · exact (wr_blk m c t (ix2 k q)).trans (Entry.wr_at m c k q)
  · exact (count_blk m c t (ix2 r (0 : Fin 1)) (ix2 p (0 : Fin 1)) hp rfl).trans (Entry.count_at m c p)
  · exact (bias_blk m c t (ix2 (0 : Fin 1) q)).trans (Entry.bias_at m c q)

/-- The same at any index `j` of the block and the array index `i` it lands on. -/
theorem point_at (c : Dev nD) (t : Fin cfg0.N) (j : S2000x256.Idx) (i : S50000x256.Idx)
    (h0 : (i 0).val = t.val * 2000 + (j 0).val) (h1 : (i 1).val = (j 1).val) :
    k0_pay1 (F := Ideal) (iblk m c 5 t) (iblk m c 0 t) (iblk m c 1 t) (iblk m c 2 t) (iblk m c 3 t) (iblk m c 4 t) j
      = out m c i := by
  obtain ⟨r, q, rfl⟩ : ∃ (r : Fin 2000) (q : Fin 256), j = ix2 r q := ⟨j 0, j 1, eq_ix2 j⟩
  obtain ⟨p, q', rfl⟩ : ∃ (p : Fin 50000) (q' : Fin 256), i = ix2 p q' := ⟨i 0, i 1, eq_ix2 i⟩
  obtain rfl : q' = q := Fin.ext h1
  exact point_entry m c t r q' p h0

/-! ## From the blocks to the array -/

/-- WHAT POINT `t` WRITES BACK is block `t` of `out`. -/
theorem flushed_eq (c : Dev nD) (t : Fin cfg0.N) :
    (dats m 0 c).flushed 6 t = ((cfg0.win 6).blk t).view.read (Elt Ideal) (out m c) := by
  rw [Value.flushed6]
  unfold out0_6
  rw [View.canon_unit_zero hz]
  simp only [View.ld_unit_zero (S := S2000x1) hz, View.ld_unit_zero (S := S2000x128) hz,
    View.ld_unit_zero (S := S128x256) hz, View.ld_unit_zero (S := S1x256) hz]
  exact eq_result_read t _ (out m c) (fun j i h0 h1 => point_at m c t j i h0 h1)

/-- An index of the array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v22).slice (win0_6.rect t)).set ↔ _
  rw [View.set_slice_whole, Rect.mem_set_unit]
  exact Iff.rfl

/-- Every index of the array is in some point's block: row `i` in block `i / 2000`. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : grid0.N = 25 := N_0
  have ht : (i 0).val / 2000 < cfg0.N := by show (i 0).val / 2000 < grid0.N; omega
  obtain ⟨-, -, -, -, -, -, -, -, -, -, -, -, e0, e1⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 256 ≤ (i 1).val
      ∧ (i 1).val < win0_6.index ⟨(i 0).val / 2000, ht⟩ (1 : Fin 2) * 256 + 256
    rw [e1]; omega

/-- THE ARRAY after the run is `out`. -/
theorem final (c : Dev nD) : (dats m 0 c).arrAt 6 cfg0.N = out m c :=
  (dats m 0 c).arrAt_eq_of_cover 6 (out m c) (fun t _ => flushed_eq m c t) cover

/-- The run, read: the result array at `out`, the arguments unchanged. -/
theorem run : θ_run defs (onTc (τ := τ) (main (F := Ideal))) ⟨m, fun _ => 0, ρ⟩ fun r => ∀ c : Dev nD,
      r.2.mem ((c : Thread nD τ).loc main_v22) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.ReferenceValue.lean ====
/-
  The plain side's result, entry by entry, on the extended reals.

  Read one operation at a time, entry `(p, q)` of the result is the maximum with zero of: the sum over `k` of the summed
  features `(p, k)` divided by the clamped in-degree of `p` (the clamp broadcast along the row) times the first weight matrix
  at `(q, k)` (its transpose at `(k, q)`), plus the bias at `q`, plus the sum over `k` of the features `(p, k)` times
  the second weight matrix at `(q, k)` — `MeanLinear.entry` of the two destination-indexed sums (kept closed) and the arguments.
-/
import proofs.«119769_j68109591380139_2_alg».proof.Proof.Gen.ReferenceIdeal.Read
import proofs.«119769_j68109591380139_2_alg».proof.Proof.MeanLinearSpec
import Idealize.ShloMosaic.Lib.ValueIdx

noncomputable section

namespace Cert.ReferenceIdeal.Mean

open Cert.ReferenceIdeal Cert.ReferenceIdeal.Gen Cert.ReferenceIdeal.Read Idealize.ShloMosaic Idealize.ShloMosaic.ValueIdx
open Cert.MeanLinear

/-! The composed index functions of the stages, at indices given by coordinates. -/

theorem lrow (p : Fin 50000) (q : Fin 256) (k : Fin 128) : lidx_main_v23 (ix2 p q) k = ix2 p k :=
  funext fun a => Fin.ext (by match a with | ⟨0, _⟩ => rfl | ⟨1, _⟩ => rfl)
theorem lcol (p : Fin 50000) (q : Fin 256) (k : Fin 128) : ridx_main_v23 (ix2 p q) k = ix2 k q :=
  funext fun a => Fin.ext (by match a with | ⟨0, _⟩ => rfl | ⟨1, _⟩ => rfl)
theorem rrow (p : Fin 50000) (q : Fin 256) (k : Fin 128) : lidx_main_v28 (ix2 p q) k = ix2 p k :=
  funext fun a => Fin.ext (by match a with | ⟨0, _⟩ => rfl | ⟨1, _⟩ => rfl)
theorem rcol (p : Fin 50000) (q : Fin 256) (k : Fin 128) : ridx_main_v28 (ix2 p q) k = ix2 k q :=
  funext fun a => Fin.ext (by match a with | ⟨0, _⟩ => rfl | ⟨1, _⟩ => rfl)
theorem tl (k : Fin 128) (q : Fin 256) : idx_main_v22 (ix2 k q) = ix2 q k :=
  funext fun a => Fin.ext (by match a with | ⟨0, _⟩ => rfl | ⟨1, _⟩ => rfl)
theorem tr (k : Fin 128) (q : Fin 256) : idx_main_v27 (ix2 k q) = ix2 q k :=
  funext fun a => Fin.ext (by match a with | ⟨0, _⟩ => rfl | ⟨1, _⟩ => rfl)
theorem brow (p : Fin 50000) (q : Fin 256) : idx_main_v25 (ix2 p q) = ix2 (0 : Fin 1) q :=
  funext fun a => Fin.ext (by match a with | ⟨0, _⟩ => rfl | ⟨1, _⟩ => rfl)
theorem bvec (q : Fin 256) : idx_main_v24 (ix2 (0 : Fin 1) q) = ix1 q :=
  funext fun a => Fin.ext (by match a with | ⟨0, _⟩ => rfl)
theorem ccol (p : Fin 50000) (k : Fin 128) : idx_main_v20 (ix2 p k) = ix2 p (0 : Fin 1) :=
  funext fun a => Fin.ext (by match a with | ⟨0, _⟩ => rfl | ⟨1, _⟩ => rfl)
theorem cvec (p : Fin 50000) : idx_main_v19 (ix2 p (0 : Fin 1)) = ix1 p :=
  funext fun a => Fin.ext (by match a with | ⟨0, _⟩ => rfl)

/-! The stages at indices given by coordinates (the two destination-indexed sums stay closed: they are named and then
    treated as variables). -/

/-- The mean: the summed features over the in-degree clamped below by one, the clamp read through its two broadcasts. -/
theorem mean_at (x0 : (⟨S50000x128, .f32⟩ : BufTy).Contents (Elt Ideal)) (x1 : (⟨S2x800000, .i32⟩ : BufTy).Contents (Elt Ideal)) (p : Fin 50000) (k : Fin 128) :
    val_main_v21 (F := Ideal) x0 x1 (ix2 p k)
      = Ideal.div (val_main_v13 (F := Ideal) x0 x1 (ix2 p k)) (max one (val_main_v17 (F := Ideal) x1 (ix1 p))) := by
  rw [val_main_v21_apply, val_main_v20_apply, ccol, val_main_v19_apply, cvec, val_main_v18_apply,
    val_main_call0_v1_apply, val_main_call0_v0_apply, val_main_cst_3_apply]
  generalize val_main_v13 (F := Ideal) x0 x1 = S
  generalize val_main_v17 (F := Ideal) x1 = C
  rfl

theorem wl_at (x2 : (⟨S256x128, .f32⟩ : BufTy).Contents (Elt Ideal)) (k : Fin 128) (q : Fin 256) :
    val_main_v22 (F := Ideal) x2 (ix2 k q) = x2 (ix2 q k) := by
  rw [val_main_v22_apply, tl]

theorem wr_at (x4 : (⟨S256x128, .f32⟩ : BufTy).Contents (Elt Ideal)) (k : Fin 128) (q : Fin 256) :
    val_main_v27 (F := Ideal) x4 (ix2 k q) = x4 (ix2 q k) := by
  rw [val_main_v27_apply, tr]

theorem bias_at (x3 : (⟨S256, .f32⟩ : BufTy).Contents (Elt Ideal)) (p : Fin 50000) (q : Fin 256) :
    val_main_v25 (F := Ideal) x3 (ix2 p q) = x3 (ix1 q) := by
  rw [val_main_v25_apply, brow, val_main_v24_apply, bvec]

/-- The first product: the mean row against the first weight matrix's row `q`. -/
theorem dotl_at (x0 : (⟨S50000x128, .f32⟩ : BufTy).Contents (Elt Ideal)) (x1 : (⟨S2x800000, .i32⟩ : BufTy).Contents (Elt Ideal)) (x2 : (⟨S256x128, .f32⟩ : BufTy).Contents (Elt Ideal))
    (p : Fin 50000) (q : Fin 256) :
    val_main_v23 (F := Ideal) x0 x1 x2 (ix2 p q)
      = ∑ k : Fin 128, Ideal.div (val_main_v13 (F := Ideal) x0 x1 (ix2 p k)) (max one (val_main_v17 (F := Ideal) x1 (ix1 p)))
          * x2 (ix2 q k) := by
  rw [val_main_v23_apply]
  refine Finset.sum_congr rfl fun k _ => ?_
  rw [lrow, lcol, mean_at, wl_at]

/-- The second: the feature row against the second weight matrix's row `q`. -/
theorem dotr_at (x0 : (⟨S50000x128, .f32⟩ : BufTy).Contents (Elt Ideal)) (x4 : (⟨S256x128, .f32⟩ : BufTy).Contents (Elt Ideal)) (p : Fin 50000) (q : Fin 256) :
    val_main_v28 (F := Ideal) x0 x4 (ix2 p q) = ∑ k : Fin 128, x0 (ix2 p k) * x4 (ix2 q k) := by
  rw [val_main_v28_apply]
  refine Finset.sum_congr rfl fun k _ => ?_
  rw [rrow, rcol, wr_at]

/-- THE RESULT is `MeanLinear.result` of the two destination-indexed sums and the arguments. -/
theorem result_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v30 (F := Ideal) x0 x1 x2 x3 x4
      = result (val_main_v13 (F := Ideal) x0 x1) (val_main_v17 (F := Ideal) x1) x0 x2 x3 x4 := by
  funext i
  obtain ⟨p, q, rfl⟩ : ∃ (p : Fin 50000) (q : Fin 256), i = ix2 p q := ⟨i 0, i 1, eq_ix2 i⟩
  rw [result_ix2, val_main_v30_apply, val_main_v29_apply, val_main_v26_apply, dotl_at, dotr_at, bias_at,
    val_main_call1_v0_apply, val_main_call1_cst_apply]
  generalize val_main_v13 (F := Ideal) x0 x1 = S
  generalize val_main_v17 (F := Ideal) x1 = C
  rfl

end Cert.ReferenceIdeal.Mean

end
-- ==== Proof.lean ====
/-
  A mean-aggregating graph layer, tiled against plain: the certificate's five claims.

  Both programs first form, on whole arrays, the sum of every edge's source-node feature row into its destination node's
  row (`S`, `[50000, 128]`) and the number of edges into each node (`C`, `[50000]`) — the same gather and the same two
  destination-indexed sums of the same arguments. The plain program then computes

      max ( ((S / max 1 C) · W_lᵀ + b) + x · W_rᵀ ) 0 ,

  with the quotient taken row by row. The tiled program splits the 50000 rows into 25 blocks of 2000 and computes, block by
  block, `max ( ((S · (1 / max C 1)) · W_lᵀ + x · W_rᵀ) + b ) 0`, its matrix operands narrowed to sixteen bits first — on the
  extended reals a change of float format is the identity and a matrix product is the exact sum of products.

  The two agree entry by entry (`MeanLinearSpec.lean`): the clamped count is at least one, so the product with its reciprocal
  is the quotient by it for every extended real, and the three summands regroup by commutativity and associativity of `+`.
  No finiteness of the inputs is used. `BodyValue.lean` reads the stored value of one grid point at an index,
  `HostPrefix.lean` the arrays the tiled region finds, `KernelValue.lean` puts the 25 blocks together into the whole result
  array, `ReferenceValue.lean` reads the plain program's result at an index. The three frames are the generated runs; the
  tiled program's idealization rewrote nothing, so there is nothing to preserve.
-/
import proofs.«119769_j68109591380139_2_alg».proof.Defs
import proofs.«119769_j68109591380139_2_alg».proof.Proof.Gen.Kernel
import proofs.«119769_j68109591380139_2_alg».proof.Proof.Gen.Kernel.Frame
import proofs.«119769_j68109591380139_2_alg».proof.Proof.Gen.KernelIdeal
import proofs.«119769_j68109591380139_2_alg».proof.Proof.Gen.KernelIdeal.Frame
import proofs.«119769_j68109591380139_2_alg».proof.Proof.Gen.KernelIdeal.Value
import proofs.«119769_j68109591380139_2_alg».proof.Proof.Gen.ReferenceIdeal
import proofs.«119769_j68109591380139_2_alg».proof.Proof.Gen.ReferenceIdeal.Run
import proofs.«119769_j68109591380139_2_alg».proof.Proof.Gen.ReferenceIdeal.Read
import proofs.«119769_j68109591380139_2_alg».proof.Proof.Gen.Pre_finite_inputs
import proofs.«119769_j68109591380139_2_alg».proof.Proof.KernelValue
import proofs.«119769_j68109591380139_2_alg».proof.Proof.ReferenceValue
import Idealize.ShloMosaic.Adequacy
import Idealize.ShloMosaic.Init

noncomputable section

namespace Cert.Proof

open Idealize.ShloMosaic Idealize.SL.Sem

theorem frame_tiled : Cert.frame_Kernel := fun m ρ _ => Cert.Kernel.Gen.frame m ρ

theorem frame_tiled_ideal : Cert.frame_KernelIdeal := fun m ρ _ => Cert.KernelIdeal.Gen.frame m ρ

theorem frame_plain : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The summed neighbour features are the same operations of the same arguments in both programs, -/
theorem sums_same (x : (⟨Cert.KernelIdeal.S50000x128, .f32⟩ : BufTy).Contents (Elt Ideal))
    (e : (⟨Cert.KernelIdeal.S2x800000, .i32⟩ : BufTy).Contents (Elt Ideal)) :
    Cert.KernelIdeal.Entry.sumAgg (F := Ideal) x e = Cert.ReferenceIdeal.Read.val_main_v13 (F := Ideal) x e := rfl

/-- and so are the in-degrees. -/
theorem degree_same (e : (⟨Cert.KernelIdeal.S2x800000, .i32⟩ : BufTy).Contents (Elt Ideal)) :
    Cert.KernelIdeal.Entry.degree (F := Ideal) e = Cert.ReferenceIdeal.Read.val_main_v17 (F := Ideal) e := rfl

/-- From memories that agree on the arguments both idealized programs end with the result array at `MeanLinear.result` of the
    two destination-indexed sums and the arguments. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Whole.out m c
  rw [Cert.ReferenceIdeal.Read.val_main_v30_eq, Cert.ReferenceIdeal.Mean.result_eq, (hagree c).1, (hagree c).2.1,
    (hagree c).2.2.1, (hagree c).2.2.2.1, (hagree c).2.2.2.2]
  unfold Cert.KernelIdeal.Whole.out
  rw [sums_same, degree_same]

theorem claim : Cert.Claim :=
  ⟨Cert.Kernel.Gen.facts, Cert.KernelIdeal.Gen.facts, Cert.ReferenceIdeal.Gen.facts, Cert.Pre_finite_inputs.Gen.facts,
    frame_tiled, frame_tiled_ideal, frame_plain, preserves, algebraic⟩

end Cert.Proof

end
